-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_arg5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S512x512 : Shape := ⟨2, ![512, 512]⟩
abbrev S400000 : Shape := ⟨1, ![400000]⟩
abbrev S15000 : Shape := ⟨1, ![15000]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S400000 : S_.BroadcastsInDim S400000 (![] : Fin 0 → Fin S400000.rank)
  reducesTo_S400000_S_d0 : S400000.ReducesTo [0] S_

variable [Facts]

def fn {F : FTy → Type} [FloatOps F] (main_arg0 : FVec F S50000x512 .f32) (main_arg1 : FVec F S512x512 .f32) (main_arg2 : FVec F S400000 .f32) (main_arg3 : IVec S400000 32) (main_arg4 : IVec S400000 32) (main_arg5 : IVec S15000 32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S400000 .f32 := Host.absf main_arg2
  let main_cst_2 : FVec F S_ .f32 := constant S_ .f32 0x7F800000#32
  let main_v10 : FVec F S400000 .f32 := broadcastInDim S400000 ![] bcast_S_S400000 main_cst_2
  let main_v11 : IVec S400000 1 := cmpf .olt main_v9 main_v10
  let main_c_3 : IVec S_ 1 := constantI S_ 1 1#1
  let main_v12 : IVec S_ 1 := (fun x v => Host.reduce IntOp.andi x v reducesTo_S400000_S_d0 h_S_) main_v11 main_c_3
  let main_v13 : IVec S_ 1 := andi main_v8 main_v12
  main_v13
-- ==== Kernel.lean ====
abbrev S50000x512 : Shape := ⟨2, ![50000, 512]⟩
abbrev S512x512 : Shape := ⟨2, ![512, 512]⟩
abbrev S400000 : Shape := ⟨1, ![400000]⟩
abbrev S15000 : Shape := ⟨1, ![15000]⟩
abbrev S_ : Shape := ⟨0, ![]⟩
abbrev S50000 : Shape := ⟨1, ![50000]⟩
abbrev S15000x1 : Shape := ⟨2, ![15000, 1]⟩
abbrev S50000x1 : Shape := ⟨2, ![50000, 1]⟩
abbrev S2000x512 : Shape := ⟨2, ![2000, 512]⟩
abbrev S2000x1 : Shape := ⟨2, ![2000, 1]⟩
abbrev S400000x1 : Shape := ⟨2, ![400000, 1]⟩
abbrev S400000x512 : Shape := ⟨2, ![400000, 512]⟩

abbrev nBuf : Space → Nat
  | .hbm => 38
  | .vmem => 7
  | .smem => 0
  | _ => 0

abbrev bufTy : (tb : Table) → Fin (tcTables nBuf tb) → BufTy
  | .hbm, ⟨0, _⟩ => ⟨S50000x512, .f32⟩
  | .hbm, ⟨1, _⟩ => ⟨S512x512, .f32⟩
  | .hbm, ⟨2, _⟩ => ⟨S400000, .f32⟩
  | .hbm, ⟨3, _⟩ => ⟨S400000, .i32⟩
  | .hbm, ⟨4, _⟩ => ⟨S400000, .i32⟩
  | .hbm, ⟨5, _⟩ => ⟨S15000, .i32⟩
  | .hbm, ⟨6, _⟩ => ⟨S_, .f32⟩
  | .hbm, ⟨7, _⟩ => ⟨S50000, .f32⟩
  | .hbm, ⟨8, _⟩ => ⟨S_, .i32⟩
  | .hbm, ⟨9, _⟩ => ⟨S15000, .i32⟩
  | .hbm, ⟨10, _⟩ => ⟨S15000, .i1⟩
  | .hbm, ⟨11, _⟩ => ⟨S_, .i32⟩
  | .hbm, ⟨12, _⟩ => ⟨S15000, .i32⟩
  | .hbm, ⟨13, _⟩ => ⟨S15000, .i32⟩
  | .hbm, ⟨14, _⟩ => ⟨S15000, .i32⟩
  | .hbm, ⟨15, _⟩ => ⟨S15000x1, .i32⟩
  | .hbm, ⟨16, _⟩ => ⟨S_, .f32⟩
  | .hbm, ⟨17, _⟩ => ⟨S15000, .f32⟩
  | .hbm, ⟨18, _⟩ => ⟨S50000, .f32⟩
  | .hbm, ⟨19, _⟩ => ⟨S50000x1, .f32⟩
  | .hbm, ⟨20, _⟩ => ⟨S512x512, .bf16⟩
  | .hbm, ⟨21, _⟩ => ⟨S50000x512, .f32⟩
  | .hbm, ⟨22, _⟩ => ⟨S400000x1, .f32⟩
  | .hbm, ⟨23, _⟩ => ⟨S_, .i32⟩
  | .hbm, ⟨24, _⟩ => ⟨S400000, .i32⟩
  | .hbm, ⟨25, _⟩ => ⟨S400000, .i1⟩
  | .hbm, ⟨26, _⟩ => ⟨S_, .i32⟩
  | .hbm, ⟨27, _⟩ => ⟨S400000, .i32⟩
  | .hbm, ⟨28, _⟩ => ⟨S400000, .i32⟩
  | .hbm, ⟨29, _⟩ => ⟨S400000, .i32⟩
  | .hbm, ⟨30, _⟩ => ⟨S400000x1, .i32⟩
  | .hbm, ⟨31, _⟩ => ⟨S400000x512, .f32⟩
  | .hbm, ⟨32, _⟩ => ⟨S400000x512, .f32⟩
  | .hbm, ⟨33, _⟩ => ⟨S400000x512, .f32⟩
  | .hbm, ⟨34, _⟩ => ⟨S_, .f32⟩
  | .hbm, ⟨35, _⟩ => ⟨S50000x512, .f32⟩
  | .hbm, ⟨36, _⟩ => ⟨S400000x1, .i32⟩
  | .hbm, ⟨37, _⟩ => ⟨S50000x512, .f32⟩
  | .local _ .vmem, ⟨0, _⟩ => ⟨S2000x512, .f32⟩
  | .local _ .vmem, ⟨1, _⟩ => ⟨S2000x512, .f32⟩
  | .local _ .vmem, ⟨2, _⟩ => ⟨S2000x1, .f32⟩
  | .local _ .vmem, ⟨3, _⟩ => ⟨S2000x1, .f32⟩
  | .local _ .vmem, ⟨4, _⟩ => ⟨S512x512, .bf16⟩
  | .local _ .vmem, ⟨5, _⟩ => ⟨S2000x512, .f32⟩
  | .local _ .vmem, ⟨6, _⟩ => ⟨S2000x512, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S50000 : S_.BroadcastsInDim S50000 (![] : Fin 0 → Fin S50000.rank)
  bcast_S_S15000 : S_.BroadcastsInDim S15000 (![] : Fin 0 → Fin S15000.rank)
  bcast_S15000_S15000x1_0 : S15000.BroadcastsInDim S15000x1 (![0] : Fin 1 → Fin S15000x1.rank)
  shapeCasts_S50000_S50000x1 : S50000.ShapeCasts S50000x1
  bitsLt_bf16_f32 : FTy.bits .bf16 < FTy.bits .f32
  inb_S2000x512_S2000x512_0_0 : ∀ a, (![0, 0] : Fin 2 → Nat) a + S2000x512.size a ≤ S2000x512.size a
  h_S2000x512 : 0 < S2000x512.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x512 : S2000x1.Broadcasts S2000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  bcast_S400000_S400000x1_0 : S400000.BroadcastsInDim S400000x1 (![0] : Fin 1 → Fin S400000x1.rank)
  bcast_S_S400000 : S_.BroadcastsInDim S400000 (![] : Fin 0 → Fin S400000.rank)
  bcast_S400000x1_S400000x512_0_1 : S400000x1.BroadcastsInDim S400000x512 (![0, 1] : Fin 2 → Fin S400000x512.rank)
  bcast_S_S50000x512 : S_.BroadcastsInDim S50000x512 (![] : Fin 0 → Fin S50000x512.rank)
  scatter_S50000_S15000x1_S15000_n_0_0_1_wf : ScatterDims.WF S50000 S15000x1 S15000 [] [0] [0] 1
  dot_S2000x512_S512x512_S2000x512_1_0_0_1_n_n_wf : DotDims.WF S2000x512 S512x512 S2000x512 [1] [0] [0] [1] [] []
  gather_S50000x512_S400000x1_S400000x512_1_0_n_n_0_1_1512_wf : GatherDims.WF S50000x512 S400000x1 S400000x512 [1] [0] [] [0] [] 1 ![1, 512]
  scatter_S50000x512_S400000x1_S400000x512_1_0_0_1_wf : ScatterDims.WF S50000x512 S400000x1 S400000x512 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x512.size a ≤ S50000x512.size a
  hwx0_3 : ∀ i : grid0.Coords, EltTy.bits .f32 = 32 ∨ (Rect.block (s := S50000x512) S2000x512.size (cc0_transform_3 i) (hinb0_3 i)).WholeWords (EltTy.packing .f32)

variable [Facts₀]

def scatter_S50000_S15000x1_S15000_n_0_0_1 : ScatterDims S50000 S15000x1 S15000 where
  updateWindowDims := []
  insertedWindowDims := [0]
  scatterDimsToOperandDims := [0]
  indexVectorDim := 1
  wf := scatter_S50000_S15000x1_S15000_n_0_0_1_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def gather_S50000x512_S400000x1_S400000x512_1_0_n_n_0_1_1512 : GatherDims S50000x512 S400000x1 S400000x512 where
  offsetDims := [1]
  collapsedSliceDims := [0]
  operandBatchingDims := []
  startIndicesBatchingDims := []
  startIndexMap := [0]
  indexVectorDim := 1
  sliceSizes := ![1, 512]
  wf := gather_S50000x512_S400000x1_S400000x512_1_0_n_n_0_1_1512_wf
def scatter_S50000x512_S400000x1_S400000x512_1_0_0_1 : ScatterDims S50000x512 S400000x1 S400000x512 where
  updateWindowDims := [1]
  insertedWindowDims := [0]
  scatterDimsToOperandDims := [0]
  indexVectorDim := 1
  wf := scatter_S50000x512_S400000x1_S400000x512_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S2000x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x512 : Shape := ⟨2, ![50000, 512]⟩
abbrev S512x512 : Shape := ⟨2, ![512, 512]⟩
abbrev S400000 : Shape := ⟨1, ![400000]⟩
abbrev S15000 : Shape := ⟨1, ![15000]⟩
abbrev S_ : Shape := ⟨0, ![]⟩
abbrev S15000x1 : Shape := ⟨2, ![15000, 1]⟩
abbrev S15000x512 : Shape := ⟨2, ![15000, 512]⟩
abbrev S400000x1 : Shape := ⟨2, ![400000, 1]⟩
abbrev S400000x512 : Shape := ⟨2, ![400000, 512]⟩

abbrev nBuf : Space → Nat
  | .hbm => 34
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S512x512, .f32⟩
  | .hbm, ⟨2, _⟩ => ⟨S400000, .f32⟩
  | .hbm, ⟨3, _⟩ => ⟨S400000, .i32⟩
  | .hbm, ⟨4, _⟩ => ⟨S400000, .i32⟩
  | .hbm, ⟨5, _⟩ => ⟨S15000, .i32⟩
  | .hbm, ⟨6, _⟩ => ⟨S_, .i32⟩
  | .hbm, ⟨7, _⟩ => ⟨S15000, .i32⟩
  | .hbm, ⟨8, _⟩ => ⟨S15000, .i1⟩
  | .hbm, ⟨9, _⟩ => ⟨S_, .i32⟩
  | .hbm, ⟨10, _⟩ => ⟨S15000, .i32⟩
  | .hbm, ⟨11, _⟩ => ⟨S15000, .i32⟩
  | .hbm, ⟨12, _⟩ => ⟨S15000, .i32⟩
  | .hbm, ⟨13, _⟩ => ⟨S15000x1, .i32⟩
  | .hbm, ⟨14, _⟩ => ⟨S_, .f32⟩
  | .hbm, ⟨15, _⟩ => ⟨S15000x512, .f32⟩
  | .hbm, ⟨16, _⟩ => ⟨S50000x512, .f32⟩
  | .hbm, ⟨17, _⟩ => ⟨S50000x512, .f32⟩
  | .hbm, ⟨18, _⟩ => ⟨S400000x1, .f32⟩
  | .hbm, ⟨19, _⟩ => ⟨S_, .i32⟩
  | .hbm, ⟨20, _⟩ => ⟨S400000, .i32⟩
  | .hbm, ⟨21, _⟩ => ⟨S400000, .i1⟩
  | .hbm, ⟨22, _⟩ => ⟨S_, .i32⟩
  | .hbm, ⟨23, _⟩ => ⟨S400000, .i32⟩
  | .hbm, ⟨24, _⟩ => ⟨S400000, .i32⟩
  | .hbm, ⟨25, _⟩ => ⟨S400000, .i32⟩
  | .hbm, ⟨26, _⟩ => ⟨S400000x1, .i32⟩
  | .hbm, ⟨27, _⟩ => ⟨S400000x512, .f32⟩
  | .hbm, ⟨28, _⟩ => ⟨S400000x512, .f32⟩
  | .hbm, ⟨29, _⟩ => ⟨S400000x512, .f32⟩
  | .hbm, ⟨30, _⟩ => ⟨S_, .f32⟩
  | .hbm, ⟨31, _⟩ => ⟨S50000x512, .f32⟩
  | .hbm, ⟨32, _⟩ => ⟨S400000x1, .i32⟩
  | .hbm, ⟨33, _⟩ => ⟨S50000x512, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]

class Facts₀ : Prop where
  bcast_S_S15000 : S_.BroadcastsInDim S15000 (![] : Fin 0 → Fin S15000.rank)
  bcast_S15000_S15000x1_0 : S15000.BroadcastsInDim S15000x1 (![0] : Fin 1 → Fin S15000x1.rank)
  bcast_S_S15000x512 : S_.BroadcastsInDim S15000x512 (![] : Fin 0 → Fin S15000x512.rank)
  bcast_S400000_S400000x1_0 : S400000.BroadcastsInDim S400000x1 (![0] : Fin 1 → Fin S400000x1.rank)
  bcast_S_S400000 : S_.BroadcastsInDim S400000 (![] : Fin 0 → Fin S400000.rank)
  bcast_S400000x1_S400000x512_0_1 : S400000x1.BroadcastsInDim S400000x512 (![0, 1] : Fin 2 → Fin S400000x512.rank)
  bcast_S_S50000x512 : S_.BroadcastsInDim S50000x512 (![] : Fin 0 → Fin S50000x512.rank)
  scatter_S50000x512_S15000x1_S15000x512_1_0_0_1_wf : ScatterDims.WF S50000x512 S15000x1 S15000x512 [1] [0] [0] 1
  dot_S50000x512_S512x512_S50000x512_1_0_0_1_n_n_wf : DotDims.WF S50000x512 S512x512 S50000x512 [1] [0] [0] [1] [] []
  gather_S50000x512_S400000x1_S400000x512_1_0_n_n_0_1_1512_wf : GatherDims.WF S50000x512 S400000x1 S400000x512 [1] [0] [] [0] [] 1 ![1, 512]
  scatter_S50000x512_S400000x1_S400000x512_1_0_0_1_wf : ScatterDims.WF S50000x512 S400000x1 S400000x512 [1] [0] [0] 1

variable [Facts₀]

def scatter_S50000x512_S15000x1_S15000x512_1_0_0_1 : ScatterDims S50000x512 S15000x1 S15000x512 where
  updateWindowDims := [1]
  insertedWindowDims := [0]
  scatterDimsToOperandDims := [0]
  indexVectorDim := 1
  wf := scatter_S50000x512_S15000x1_S15000x512_1_0_0_1_wf
def dot_S50000x512_S512x512_S50000x512_1_0_0_1_n_n : DotDims S50000x512 S512x512 S50000x512 where
  lhsContracting := [1]
  rhsContracting := [0]
  lhsNonContracting := [0]
  rhsNonContracting := [1]
  lhsBatch := []
  rhsBatch := []
  wf := dot_S50000x512_S512x512_S50000x512_1_0_0_1_n_n_wf
def gather_S50000x512_S400000x1_S400000x512_1_0_n_n_0_1_1512 : GatherDims S50000x512 S400000x1 S400000x512 where
  offsetDims := [1]
  collapsedSliceDims := [0]
  operandBatchingDims := []
  startIndicesBatchingDims := []
  startIndexMap := [0]
  indexVectorDim := 1
  sliceSizes := ![1, 512]
  wf := gather_S50000x512_S400000x1_S400000x512_1_0_n_n_0_1_1512_wf
def scatter_S50000x512_S400000x1_S400000x512_1_0_0_1 : ScatterDims S50000x512 S400000x1 S400000x512 where
  updateWindowDims := [1]
  insertedWindowDims := [0]
  scatterDimsToOperandDims := [0]
  indexVectorDim := 1
  wf := scatter_S50000x512_S400000x1_S400000x512_1_0_0_1_wf

class Facts : Prop extends Facts₀ where

variable [Facts]
-- ==== Proof.LibDotRead.lean ====
/-
  A plain matrix product read at an entry.

  For a two-dimensional product with one contracted axis — rows × contraction times contraction × columns, no batch
  axis — the entry (r, k) of the product into a zero accumulator is the finite sum Σ j, lhs (r, j) · rhs (j, k) over the
  contraction's coordinate j : Fin n. The dimension record enters only through the four coordinate facts below
  (which operand coordinate each output and contraction coordinate supplies); for a printed record each of them is
  decided or holds by unfolding. The same sum is what the host's general dot product computes, so the two forms
  meet term by term.
-/
import Idealize.ShloMosaic.PureOps.Ideal
import Idealize.ShloMosaic.PureOps.Ideal.Laws
import Idealize.ShloMosaic.Lib.ValueIdx

noncomputable section

namespace Cert.DotRead

open Idealize.ShloMosaic Idealize.ShloMosaic.ValueIdx

/-- The four coordinate facts of a plain two-dimensional product whose contraction has the one coordinate of extent n:
    the left operand is read at (output row, contraction), the right one at (contraction, output column). -/
structure Plain {m n p : ℕ} (d : DotDims ⟨2, ![m, n]⟩ ⟨2, ![n, p]⟩ ⟨2, ![m, p]⟩) : Prop where
  rank : d.contr.rank = 1
  size : d.contr.size ⟨0, by omega⟩ = n
  lhs0 : ∀ (i : (⟨2, ![m, p]⟩ : Shape).Idx) (q : d.contr.Idx), (d.lhsIdx i q 0).val = (i 0).val
  lhs1 : ∀ (i : (⟨2, ![m, p]⟩ : Shape).Idx) (q : d.contr.Idx), (d.lhsIdx i q 1).val = (q ⟨0, by omega⟩).val
  rhs0 : ∀ (i : (⟨2, ![m, p]⟩ : Shape).Idx) (q : d.contr.Idx), (d.rhsIdx i q 0).val = (q ⟨0, by omega⟩).val
  rhs1 : ∀ (i : (⟨2, ![m, p]⟩ : Shape).Idx) (q : d.contr.Idx), (d.rhsIdx i q 1).val = (i 1).val

/-- Entry (r, k) of a plain product into the zero accumulator is Σ j, lhs (r, j) · rhs (j, k). -/
theorem matmul_zero_apply {m n p : ℕ} {φ₁ φ₂ : FTy} (d : DotDims ⟨2, ![m, n]⟩ ⟨2, ![n, p]⟩ ⟨2, ![m, p]⟩) (hd : Plain d)
    (prec : Option ContractPrecision) (lhs : FVec Ideal ⟨2, ![m, n]⟩ φ₁) (rhs : FVec Ideal ⟨2, ![n, p]⟩ φ₂) (r : Fin m) (k : Fin p) :
    matmul d prec lhs rhs (constant (F := Ideal) ⟨2, ![m, p]⟩ .f32 0x00000000#32) (ix2 r k)
      = ∑ j : Fin n, lhs (ix2 r j) * rhs (ix2 j k) := by
  simp only [matmul]
  rw [Ideal.matmul_constant_zero_apply, ← Equiv.sum_comp (contrEquiv1 d n hd.rank hd.size).symm]
  refine Finset.sum_congr rfl fun j _ => ?_
  have hj := contrEquiv1_symm_val d n hd.rank hd.size j
  have el : d.lhsIdx (ix2 r k) ((contrEquiv1 d n hd.rank hd.size).symm j) = ix2 r j := funext fun a => Fin.ext (by
    match a with
    | ⟨0, _⟩ => exact hd.lhs0 _ _
    | ⟨1, _⟩ => exact (hd.lhs1 _ _).trans hj)
  have er : d.rhsIdx (ix2 r k) ((contrEquiv1 d n hd.rank hd.size).symm j) = ix2 j k := funext fun a => Fin.ext (by
    match a with
    | ⟨0, _⟩ => exact (hd.rhs0 _ _).trans hj
    | ⟨1, _⟩ => exact hd.rhs1 _ _)
  rw [el, er]

end Cert.DotRead

end
-- ==== Proof.LibLayoutRead.lean ====
/-
  Layout operations read at explicit coordinates, for the shapes a row-wise normalisation meets.

  A keepdims row statistic lives in a column [a, 1]: it is made from a vector [a] by a shape cast and spread
  back over the b lanes of its row by a broadcast; a parameter vector [b] becomes a row [1, b] and is spread
  over the rows. On the host the same happens one rank up, on [n, g, 1] and [n, g, b], and a matrix [n, g*b] is
  re-read as [n, g, b] by its row-major position p*b + j. Each lemma names the ONE operand element an output element
  reads, with every index written by the literal-size constructors ix1, ix2, ix3.
-/
import Idealize.ShloMosaic.Lib.ValueIdx
import Idealize.ShloMosaic.Lib.Pipeline.Value
import Idealize.ShloMosaic.Lib.ValueLayout
import Idealize.ShloMosaic.PureOps.Ideal.Laws

noncomputable section

namespace Cert.LayoutRead

open Idealize.ShloMosaic Idealize.ShloMosaic.ValueIdx

variable {α : Type}

/-! ## Rank 2: a column of row statistics -/

/-- A vector [a] cast to the column [a, 1] reads, at (r, u), the vector at r. -/
theorem cast_col {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- A column [a, 1] broadcast over b lanes reads, at (r, j), the column at row r. -/
theorem bcast_col {a b : ℕ} (v : (⟨2, ![a, 1]⟩ : Shape).Idx → α) (h : (⟨2, ![a, 1]⟩ : Shape).Broadcasts ⟨2, ![a, b]⟩)
    (r : Fin a) (j : Fin b) : broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-- The lane sum of a matrix, at row r, is the sum of that row (at the extended reals). -/
theorem rowsum {a b : ℕ} (src : FVec Ideal ⟨2, ![a, b]⟩ .f32) (h : (⟨2, ![a, b]⟩ : Shape).Reduces [1] ⟨1, ![a]⟩) (r : Fin a) :
    multiReduction .add [1] ⟨1, ![a]⟩ src 0x00000000#32 h (.inl rfl) rfl (ix1 r) = ∑ k : Fin b, src (ix2 r k) :=
  (Ideal.multiReduction_add_single src 0x00000000#32 h (.inl rfl) rfl (ix1 r)).trans
    (Finset.sum_congr rfl fun k _ => congrArg src (funext fun ax => by
      match ax with
      | ⟨0, _⟩ => rfl
      | ⟨1, _⟩ => rfl))

/-! ## The host's forms: broadcast_in_dim, the rank-3 view of the four gates, the host sum -/

/-- A coordinate is what a broadcast asks of it: itself, or zero when its axis has one element. -/
theorem unit_or (n : ℕ) (j : Fin n) : j.val = if n = 1 then 0 else j.val := by
  split
  · have := j.isLt; omega
  · rfl

/-- A rank-zero value broadcast to any shape reads its one element everywhere. -/
theorem bcast_scalar {t : Shape} (x : (⟨0, ![]⟩ : Shape).Idx → α) (dims : Fin 0 → Fin t.rank)
    (h : (⟨0, ![]⟩ : Shape).BroadcastsInDim t dims) (j : t.Idx) : broadcastInDim t dims h x j = x ix0 :=
  broadcastInDim_apply dims h x j ix0 fun a => a.elim0

/-- A vector [n] as the row [1, n]. -/
theorem bid_row {n : ℕ} (x : (⟨1, ![n]⟩ : Shape).Idx → α) (h : (⟨1, ![n]⟩ : Shape).BroadcastsInDim ⟨2, ![1, n]⟩ ![1])
    (u : Fin 1) (j : Fin n) : broadcastInDim ⟨2, ![1, n]⟩ ![1] h x (ix2 u j) = x (ix1 j) :=
  broadcastInDim_apply _ h x _ _ fun a => by
    match a with
    | ⟨0, _⟩ => exact unit_or n j

/-- A row [1, n] spread over m rows. -/
theorem bid_rows {m n : ℕ} (x : (⟨2, ![1, n]⟩ : Shape).Idx → α) (h : (⟨2, ![1, n]⟩ : Shape).BroadcastsInDim ⟨2, ![m, n]⟩ ![0, 1])
    (b : Fin m) (j : Fin n) : broadcastInDim ⟨2, ![m, n]⟩ ![0, 1] h x (ix2 b j) = x (ix2 (0 : Fin 1) j) :=
  broadcastInDim_apply _ h x _ _ fun a => by
    match a with
    | ⟨0, _⟩ => rfl
    | ⟨1, _⟩ => exact unit_or n j

/-- A vector [m] as the column [m, 1]. -/
theorem bid_col {m : ℕ} (x : (⟨1, ![m]⟩ : Shape).Idx → α) (h : (⟨1, ![m]⟩ : Shape).BroadcastsInDim ⟨2, ![m, 1]⟩ ![0])
    (b : Fin m) (u : Fin 1) : broadcastInDim ⟨2, ![m, 1]⟩ ![0] h x (ix2 b u) = x (ix1 b) :=
  broadcastInDim_apply _ h x _ _ fun a => by
    match a with
    | ⟨0, _⟩ => exact unit_or m b

/-- A column [m, 1] spread over n lanes. -/
theorem bid_cols {m n : ℕ} (x : (⟨2, ![m, 1]⟩ : Shape).Idx → α) (h : (⟨2, ![m, 1]⟩ : Shape).BroadcastsInDim ⟨2, ![m, n]⟩ ![0, 1])
    (b : Fin m) (j : Fin n) : broadcastInDim ⟨2, ![m, n]⟩ ![0, 1] h x (ix2 b j) = x (ix2 b (0 : Fin 1)) :=
  broadcastInDim_apply _ h x _ _ fun a => by
    match a with
    | ⟨0, _⟩ => exact unit_or m b
    | ⟨1, _⟩ => rfl

/-- A matrix [m, g] of per-gate statistics as [m, g, 1]. -/
theorem bid_stat {m g : ℕ} (x : (⟨2, ![m, g]⟩ : Shape).Idx → α) (h : (⟨2, ![m, g]⟩ : Shape).BroadcastsInDim ⟨3, ![m, g, 1]⟩ ![0, 1])
    (b : Fin m) (p : Fin g) (u : Fin 1) : broadcastInDim ⟨3, ![m, g, 1]⟩ ![0, 1] h x (ix3 b p u) = x (ix2 b p) :=
  broadcastInDim_apply _ h x _ _ fun a => by
    match a with
    | ⟨0, _⟩ => exact unit_or m b
    | ⟨1, _⟩ => exact unit_or g p

/-- Per-gate statistics [m, g, 1] spread over the n lanes of each gate. -/
theorem bid_stats {m g n : ℕ} (x : (⟨3, ![m, g, 1]⟩ : Shape).Idx → α)
    (h : (⟨3, ![m, g, 1]⟩ : Shape).BroadcastsInDim ⟨3, ![m, g, n]⟩ ![0, 1, 2])
    (b : Fin m) (p : Fin g) (j : Fin n) : broadcastInDim ⟨3, ![m, g, n]⟩ ![0, 1, 2] h x (ix3 b p j) = x (ix3 b p (0 : Fin 1)) :=
  broadcastInDim_apply _ h x _ _ fun a => by
    match a with
    | ⟨0, _⟩ => exact unit_or m b
    | ⟨1, _⟩ => exact unit_or g p
    | ⟨2, _⟩ => rfl

/-- The per-gate parameters [g, n] as [1, g, n]. -/
theorem bid_par {g n : ℕ} (x : (⟨2, ![g, n]⟩ : Shape).Idx → α) (h : (⟨2, ![g, n]⟩ : Shape).BroadcastsInDim ⟨3, ![1, g, n]⟩ ![1, 2])
    (u : Fin 1) (p : Fin g) (j : Fin n) : broadcastInDim ⟨3, ![1, g, n]⟩ ![1, 2] h x (ix3 u p j) = x (ix2 p j) :=
  broadcastInDim_apply _ h x _ _ fun a => by
    match a with
    | ⟨0, _⟩ => exact unit_or g p
    | ⟨1, _⟩ => exact unit_or n j

/-- The per-gate parameters [1, g, n] spread over m rows. -/
theorem bid_pars {m g n : ℕ} (x : (⟨3, ![1, g, n]⟩ : Shape).Idx → α)
    (h : (⟨3, ![1, g, n]⟩ : Shape).BroadcastsInDim ⟨3, ![m, g, n]⟩ ![0, 1, 2])
    (b : Fin m) (p : Fin g) (j : Fin n) : broadcastInDim ⟨3, ![m, g, n]⟩ ![0, 1, 2] h x (ix3 b p j) = x (ix3 (0 : Fin 1) p j) :=
  broadcastInDim_apply _ h x _ _ fun a => by
    match a with
    | ⟨0, _⟩ => rfl
    | ⟨1, _⟩ => exact unit_or g p
    | ⟨2, _⟩ => exact unit_or n j

/-- The four gates' pre-activations [m, 4096] re-read as [m, 4, 1024]: gate p, lane j is column 1024 p + j. -/
theorem cast_gates {m : ℕ} (x : (⟨2, ![m, 4096]⟩ : Shape).Idx → α) (h : (⟨2, ![m, 4096]⟩ : Shape).ShapeCasts ⟨3, ![m, 4, 1024]⟩)
    (b : Fin m) (p : Fin 4) (j : Fin 1024) (k : Fin 4096) (hk : k.val = 1024 * p.val + j.val) :
    shapeCast ⟨3, ![m, 4, 1024]⟩ x h (ix3 b p j) = x (ix2 b k) :=
  shapeCast_apply x h _ _ (by
    rw [Shape.rowMajor_val_two, Shape.rowMajor_val_three]
    show b.val * 4096 + k.val = (b.val * 4 + p.val) * 1024 + j.val
    omega)

/-- One gate cut out of [m, 4, n] keeps its row and lane. -/
theorem slice_gate {m n : ℕ} (o : ℕ) (x : (⟨3, ![m, 4, n]⟩ : Shape).Idx → α)
    (h : (⟨3, ![m, 4, n]⟩ : Shape).Slices ![0, o, 0] ⟨3, ![m, 1, n]⟩) (b : Fin m) (u : Fin 1) (j : Fin n) (p : Fin 4)
    (hp : p.val = o) : extractStridedSlice ⟨3, ![m, 1, n]⟩ ![0, o, 0] x h (ix3 b u j) = x (ix3 b p j) :=
  slice3_axis1_apply o x h b u j p (by have := u.isLt; omega)

/-- The cut gate [m, 1, n] as a matrix [m, n]. -/
theorem cast_gate {m n : ℕ} (x : (⟨3, ![m, 1, n]⟩ : Shape).Idx → α) (h : (⟨3, ![m, 1, n]⟩ : Shape).ShapeCasts ⟨2, ![m, n]⟩)
    (b : Fin m) (j : Fin n) : shapeCast ⟨2, ![m, n]⟩ x h (ix2 b j) = x (ix3 b (0 : Fin 1) j) :=
  shapeCast_apply x h _ _ (by
    rw [Shape.rowMajor_val_two, Shape.rowMajor_val_three]
    show (b.val * 1 + 0) * n + j.val = b.val * n + j.val
    rw [Nat.mul_one, Nat.add_zero])

/-- The host's sum over the lanes of each gate: the initial value plus the sum of the gate's lanes. -/
theorem hostsum_gate {m g n : ℕ} (x : FVec Ideal ⟨3, ![m, g, n]⟩ .f32) (init : (⟨0, ![]⟩ : Shape).Idx → Ideal .f32)
    (h' : (⟨3, ![m, g, n]⟩ : Shape).ReducesTo [2] ⟨2, ![m, g]⟩) (h : (⟨3, ![m, g, n]⟩ : Shape).Reduces [2] ⟨2, ![m, g]⟩)
    (hu : 0 < (⟨0, ![]⟩ : Shape).numel) (b : Fin m) (p : Fin g) :
    Host.reduceAdd x init h' hu (ix2 b p) = init ix0 + ∑ k : Fin n, x (ix3 b p k) := by
  unfold Host.reduceAdd
  rw [Ideal.hostReduceAdd_def, Ideal.hostReduceAdd_single h' h]
  refine congrArg₂ (· + ·) (congrArg init (funext fun a => a.elim0)) (Finset.sum_congr rfl fun k _ => congrArg x (funext fun ax => ?_))
  match ax with
  | ⟨0, _⟩ => rfl
  | ⟨1, _⟩ => rfl
  | ⟨2, _⟩ => rfl

/-- The host's sum over the lanes of a matrix row. -/
theorem hostsum_row {m n : ℕ} (x : FVec Ideal ⟨2, ![m, n]⟩ .f32) (init : (⟨0, ![]⟩ : Shape).Idx → Ideal .f32)
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel) (b : Fin m) :
    Host.reduceAdd x init h' hu (ix1 b) = init ix0 + ∑ k : Fin n, x (ix2 b k) := by
  unfold Host.reduceAdd
  rw [Ideal.hostReduceAdd_def, Ideal.hostReduceAdd_single h' h]
  refine congrArg₂ (· + ·) (congrArg init (funext fun a => a.elim0)) (Finset.sum_congr rfl fun k _ => congrArg x (funext fun ax => ?_))
  match ax with
  | ⟨0, _⟩ => rfl
  | ⟨1, _⟩ => rfl

end Cert.LayoutRead

end
-- ==== Proof.BlockProduct.lean ====
/-
  One grid point's product, entry by entry.

  At a grid point the body holds a block x0 of 2000 feature rows, the matching 2000 entries x1 of the row mask as a
  column, and the whole 512 × 512 weight x2. It scales every lane of row p of x0 by the mask entry of row p and
  multiplies the result by the weight, accumulating from zero. On the extended reals a change of float format is the
  identity and the accumulated product is the plain finite sum, so entry (p, q) of what the body stores is

      Σ j, (x0 (p, j) · x1 (p, 0)) · x2 (j, q).
-/
import proofs.«149553_j28140625723622_1_alg».proof.Proof.Gen.KernelIdeal.Skeleton
import proofs.«149553_j28140625723622_1_alg».proof.Proof.LibDotRead
import proofs.«149553_j28140625723622_1_alg».proof.Proof.LibLayoutRead

noncomputable section

namespace Cert.KernelIdeal.BlockProduct

open Cert.KernelIdeal Cert.KernelIdeal.Gen Idealize.ShloMosaic Idealize.ShloMosaic.ValueIdx

/-- The body's product is a plain one: rows × lanes times lanes × columns, the one contracted coordinate the lane. -/
theorem plain : Cert.DotRead.Plain dot_S2000x512_S512x512_S2000x512_1_0_0_1_n_n where
  rank := rfl
  size := rfl
  lhs0 := fun i q => by
    unfold DotDims.lhsIdx
    rw [dif_neg (show ¬(0 : Fin S2000x512.rank) ∈ dot_S2000x512_S512x512_S2000x512_1_0_0_1_n_n.lhsBatch by decide),
      dif_pos (show (0 : Fin S2000x512.rank) ∈ dot_S2000x512_S512x512_S2000x512_1_0_0_1_n_n.lhsNonContracting by decide)]
    rfl
  lhs1 := fun i q => dot_S2000x512_S512x512_S2000x512_1_0_0_1_n_n.lhsIdx_val_of_single rfl i q
  rhs0 := fun i q => dot_S2000x512_S512x512_S2000x512_1_0_0_1_n_n.rhsIdx_val_of_single rfl i q
  rhs1 := fun i q => by
    unfold DotDims.rhsIdx
    rw [dif_neg (show ¬(1 : Fin S512x512.rank) ∈ dot_S2000x512_S512x512_S2000x512_1_0_0_1_n_n.rhsBatch by decide),
      dif_pos (show (1 : Fin S512x512.rank) ∈ dot_S2000x512_S512x512_S2000x512_1_0_0_1_n_n.rhsNonContracting by decide)]
    rfl

/-- Entry (p, q) of the block the body stores: the masked row p of the features against column q of the weight. -/
theorem pay_apply (x0 : Vec Ideal S2000x512 .f32) (x1 : Vec Ideal S2000x1 .f32) (x2 : Vec Ideal S512x512 .bf16)
    (p : Fin 2000) (q : Fin 512) :
    k0_pay1 (F := Ideal) x0 x1 x2 (ix2 p q) = ∑ j : Fin 512, (x0 (ix2 p j) * x1 (ix2 p (0 : Fin 1))) * x2 (ix2 j q) := by
  unfold k0_pay1
  refine (Cert.DotRead.matmul_zero_apply dot_S2000x512_S512x512_S2000x512_1_0_0_1_n_n plain none _ _ p q).trans ?_
  refine Finset.sum_congr rfl fun j _ => ?_
  rw [shapeCast_self, shapeCast_self, truncf_apply, mulf_apply, Cert.LayoutRead.bcast_col]

end Cert.KernelIdeal.BlockProduct

end
-- ==== Proof.ProductArray.lean ====
/-
  The region's output array as one function of the arrays the region finds.

  The grid has 25 points; point t takes rows 2000 t … 2000 t + 1999 of the features and of the mask column, the whole
  weight, and writes rows 2000 t … 2000 t + 1999 of the output. So every block the region writes back is a restriction
  of ONE function of the three arrays,

      P (r, k) = Σ j, (feat (r, j) · mask (r, 0)) · weight (j, k),

  and the 25 blocks cover the 50000 rows (row r lies in block r / 2000): after the region the output array is P.
-/
import proofs.«149553_j28140625723622_1_alg».proof.Proof.Gen.KernelIdeal.Frame
import proofs.«149553_j28140625723622_1_alg».proof.Proof.BlockProduct
import Idealize.ShloMosaic.Lib.Pipeline.Value

noncomputable section

namespace Cert.KernelIdeal.ProductArray

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The masked product: row r of the features scaled by the mask entry of row r, against column k of the weight. -/
def maskedProduct (a0 : S50000x512.Idx → Elt Ideal .f32) (a9 : S50000x1.Idx → Elt Ideal .f32)
    (a10 : S512x512.Idx → Elt Ideal .bf16) : S50000x512.Idx → Elt Ideal .f32 :=
  fun i => ∑ j : Fin 512, (a0 (ix2 (i 0) j) * a9 (ix2 (i 0) (0 : Fin 1))) * a10 (ix2 j (i 1))

theorem maskedProduct_apply (a0 : S50000x512.Idx → Elt Ideal .f32) (a9 : S50000x1.Idx → Elt Ideal .f32)
    (a10 : S512x512.Idx → Elt Ideal .bf16) (r : Fin 50000) (k : Fin 512) :
    maskedProduct a0 a9 a10 (ix2 r k) = ∑ j : Fin 512, (a0 (ix2 r j) * a9 (ix2 r (0 : Fin 1))) * a10 (ix2 j k) := rfl

theorem zero_offset : (![0, 0] : Fin 2 → Nat) = fun _ => 0 := funext fun a => by fin_cases a <;> rfl

/-- Where each window's block sits at point t: the features, the mask column and the output at row block t, lane
    block 0; the weight always at block (0, 0). -/
theorem idx_facts : ∀ t : Fin cfg0.N, win0_0.index t (0 : Fin 2) = win0_3.index t (0 : Fin 2)
    ∧ win0_0.index t (1 : Fin 2) = 0
    ∧ win0_1.index t (0 : Fin 2) = win0_3.index t (0 : Fin 2)
    ∧ win0_1.index t (1 : Fin 2) = 0
    ∧ win0_2.index t (0 : Fin 2) = 0
    ∧ win0_2.index t (1 : Fin 2) = 0
    ∧ win0_3.index t (1 : Fin 2) = 0
    ∧ win0_3.index t (0 : Fin 2) ≤ 24 :=
  (by decide +kernel : ∀ t : Fin grid0.N, _)

/-- Every row block is some point's. -/
theorem idx_onto : ∀ q0 : Fin 25, ∃ t : Fin cfg0.N, win0_3.index t = ![q0.val, 0] :=
  (by decide +kernel : ∀ q0 : Fin 25, ∃ t : Fin grid0.N, win0_3.index t = ![q0.val, 0])

/-- Element (p, j) of the feature block at point t is the feature array at row 2000 · (row block) + p, lane j. -/
theorem read_feat (c : Dev nD) (t : Fin cfg0.N) (p : Fin 2000) (j : Fin 512) (r : Fin 50000)
    (hr : r.val = win0_3.index t (0 : Fin 2) * 2000 + p.val) :
    iblk m c 0 t (ix2 p j) = V m c main_arg0 (ix2 r j) := by
  obtain ⟨e00, e01, e10, e11, e20, e21, e31, e30⟩ := idx_facts t
  show V m c main_arg0 (((cfg0.win 0).blk t).view.emb (ix2 p j)) = V m c main_arg0 (ix2 r j)
  have h : ((cfg0.win 0).blk t).view.emb (ix2 p j) = ix2 r j := by
    funext a; apply Fin.ext
    match a with
    | ⟨0, _⟩ => show win0_0.index t (0 : Fin 2) * 2000 + 1 * p.val = r.val; omega
    | ⟨1, _⟩ => show win0_0.index t (1 : Fin 2) * 512 + 1 * j.val = j.val; omega
  rw [h]

/-- Element (p, 0) of the mask block at point t is the mask column at the same row. -/
theorem read_mask (c : Dev nD) (t : Fin cfg0.N) (p : Fin 2000) (r : Fin 50000)
    (hr : r.val = win0_3.index t (0 : Fin 2) * 2000 + p.val) :
    iblk m c 1 t (ix2 p (0 : Fin 1)) = V m c main_v9 (ix2 r (0 : Fin 1)) := by
  obtain ⟨e00, e01, e10, e11, e20, e21, e31, e30⟩ := idx_facts t
  show V m c main_v9 (((cfg0.win 1).blk t).view.emb (ix2 p (0 : Fin 1))) = V m c main_v9 (ix2 r (0 : Fin 1))
  have h : ((cfg0.win 1).blk t).view.emb (ix2 p (0 : Fin 1)) = ix2 r (0 : Fin 1) := by
    funext a; apply Fin.ext
    match a with
    | ⟨0, _⟩ => show win0_1.index t (0 : Fin 2) * 2000 + 1 * p.val = r.val; omega
    | ⟨1, _⟩ => show win0_1.index t (1 : Fin 2) * 1 + 1 * 0 = 0; omega
  rw [h]

/-- The weight block at any point is the whole weight. -/
theorem read_weight (c : Dev nD) (t : Fin cfg0.N) (j : Fin 512) (k : Fin 512) :
    iblk m c 2 t (ix2 j k) = V m c main_v10 (ix2 j k) := by
  obtain ⟨e00, e01, e10, e11, e20, e21, e31, e30⟩ := idx_facts t
  show V m c main_v10 (((cfg0.win 2).blk t).view.emb (ix2 j k)) = V m c main_v10 (ix2 j k)
  have h : ((cfg0.win 2).blk t).view.emb (ix2 j k) = ix2 j k := by
    funext a; apply Fin.ext
    match a with
    | ⟨0, _⟩ => show win0_2.index t (0 : Fin 2) * 512 + 1 * j.val = j.val; omega
    | ⟨1, _⟩ => show win0_2.index t (1 : Fin 2) * 512 + 1 * k.val = k.val; omega
  rw [h]

/-- WHAT POINT t WRITES BACK is block t of the masked product of the arrays the region finds. -/
theorem flushed_eq (c : Dev nD) (t : Fin cfg0.N) :
    (dats m 0 c).flushed 3 t
      = ((cfg0.win 3).blk t).view.read (Elt Ideal) (maskedProduct (V m c main_arg0) (V m c main_v9) (V m c main_v10)) := by
  show (cfg0.win 3).cut (grid0.coords t) ((dats m 0 c).after 3 t) = _
  rw [after0_3]
  unfold out0_3
  rw [View.canon_unit_zero zero_offset]
  simp only [View.ld_unit_zero (S := S2000x512) zero_offset, View.ld_unit_zero (S := S2000x1) zero_offset,
    View.ld_unit_zero (S := S512x512) zero_offset]
  obtain ⟨e00, e01, e10, e11, e20, e21, e31, e30⟩ := idx_facts t
  funext y
  obtain ⟨p, q, rfl⟩ : ∃ (p : Fin 2000) (q : Fin 512), y = ix2 p q := ⟨y 0, y 1, eq_ix2 y⟩
  have hp : p.val < 2000 := p.isLt
  let r : Fin 50000 := ⟨win0_3.index t (0 : Fin 2) * 2000 + p.val, by omega⟩
  have he : ((cfg0.win 3).blk t).view.emb (ix2 p q) = ix2 r q := by
    funext a; apply Fin.ext
    match a with
    | ⟨0, _⟩ => show win0_3.index t (0 : Fin 2) * 2000 + 1 * p.val = win0_3.index t (0 : Fin 2) * 2000 + p.val; omega
    | ⟨1, _⟩ => show win0_3.index t (1 : Fin 2) * 512 + 1 * q.val = q.val; omega
  show k0_pay1 (F := Ideal) (iblk m c 0 t) (iblk m c 1 t) (iblk m c 2 t) (ix2 p q)
    = maskedProduct (V m c main_arg0) (V m c main_v9) (V m c main_v10) (((cfg0.win 3).blk t).view.emb (ix2 p q))
  rw [he, maskedProduct_apply]
  refine (BlockProduct.pay_apply (iblk m c 0 t) (iblk m c 1 t) (iblk m c 2 t) p q).trans ?_
  refine Finset.sum_congr rfl fun j _ => ?_
  rw [read_feat m c t p j r rfl, read_mask m c t p r rfl, read_weight m c t j q]

/-- An index of the output array is in point t's block iff each coordinate is in the block's range on its axis. -/
theorem mem_blk (t : Fin cfg0.N) (i : S50000x512.Idx) :
    i ∈ ((cfg0.win 3).blk t).view.set ↔ ∀ a : Fin 2, win0_3.index t a * S2000x512.size a ≤ (i a).val
      ∧ (i a).val < win0_3.index t a * S2000x512.size a + S2000x512.size a := by
  show i ∈ ((View.whole main_v11).slice (win0_3.rect t)).set ↔ _
  rw [View.set_slice_whole, Rect.mem_set_unit]
  exact Iff.rfl

/-- Every index of the output array lies in the block of the point its row block names. -/
theorem cover (i : S50000x512.Idx) :
    ∃ t : Fin cfg0.N, (cfg0.win 3).flush t = true ∧ i ∈ ((cfg0.win 3).blk t).view.set := by
  have hi0 : (i 0).val < 50000 := (i 0).isLt
  have hi1 : (i 1).val < 512 := (i 1).isLt
  obtain ⟨t, ht⟩ := idx_onto ⟨(i 0).val / 2000, by omega⟩
  have q0 : win0_3.index t (0 : Fin 2) = (i 0).val / 2000 := congrFun ht 0
  have q1 : win0_3.index t (1 : Fin 2) = 0 := congrFun ht 1
  refine ⟨t, flush0_3 t, ?_⟩
  rw [mem_blk]
  intro a
  match a with
  | ⟨0, _⟩ =>
    show win0_3.index t (0 : Fin 2) * 2000 ≤ (i 0).val ∧ (i 0).val < win0_3.index t (0 : Fin 2) * 2000 + 2000
    omega
  | ⟨1, _⟩ =>
    show win0_3.index t (1 : Fin 2) * 512 ≤ (i 1).val ∧ (i 1).val < win0_3.index t (1 : Fin 2) * 512 + 512
    omega

/-- THE OUTPUT ARRAY after the region is the masked product of the arrays the region finds. -/
theorem product_array (c : Dev nD) :
    (dats m 0 c).arrAt 3 cfg0.N = maskedProduct (V m c main_arg0) (V m c main_v9) (V m c main_v10) :=
  (dats m 0 c).arrAt_eq_of_cover 3 _ (fun t _ => flushed_eq m c t) cover

end Cert.KernelIdeal.ProductArray

end
-- ==== Proof.EntryArrays.lean ====
/-
  What the region finds in the two arrays the host prepares for it.

  Before the region the host normalises the 15000 row indices (a negative index i is read as i + 50000), lays them out as
  a column of start indices, and overwrites with 0 the entries of an all-ones vector of length 50000 that the column
  names: the row mask. The region's second operand is that vector re-read as a column [50000, 1]; its third is the
  weight after a change of float format, which on the extended reals changes nothing.
-/
import proofs.«149553_j28140625723622_1_alg».proof.Proof.Gen.KernelIdeal.Frame
import Idealize.ShloMosaic.Lib.StableHlo.Run
import Idealize.ShloMosaic.PureOps.Ideal

noncomputable section

namespace Cert.KernelIdeal.EntryArrays

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The normalised row indices as a column of start indices: i where i ≥ 0, i + 50000 where i < 0. -/
def startColumn (x5 : (⟨S15000, .i32⟩ : BufTy).Contents (Elt Ideal)) : (⟨S15000x1, .i32⟩ : BufTy).Contents (Elt Ideal) :=
  broadcastInDim S15000x1 ![0] bcast_S15000_S15000x1_0
    (select (cmpi .slt x5 (broadcastInDim S15000 ![] bcast_S_S15000 (constantI S_ 32 0#32)))
      (addi x5 (broadcastInDim S15000 ![] bcast_S_S15000 (constantI S_ 32 50000#32))) x5)

/-- The row mask as a vector: ones, overwritten by 0 at the entries the start indices name. -/
def maskVector (x5 : (⟨S15000, .i32⟩ : BufTy).Contents (Elt Ideal)) : (⟨S50000, .f32⟩ : BufTy).Contents (Elt Ideal) :=
  Host.scatter scatter_S50000_S15000x1_S15000_n_0_0_1 (fun _ b => b)
    (broadcastInDim S50000 ![] bcast_S_S50000 (constant (F := Ideal) S_ .f32 0x3F800000#32))
    (startColumn x5)
    (broadcastInDim S15000 ![] bcast_S_S15000 (constant (F := Ideal) S_ .f32 0x00000000#32))

/-- The region finds the mask vector, re-read as a column, in its second operand. -/
theorem entry_mask (c : Dev nD) :
    (V m c main_v9 : S50000x1.Idx → Elt Ideal .f32)
      = shapeCast S50000x1 (maskVector (m ((c : Thread nD τ).loc main_arg5))) shapeCasts_S50000_S50000x1 := by
  show StableHlo.after hostOps0 (fun b => m (c, b)) (Proc.devRef .tc main_v9) = _
  after_results <;> rfl

/-- The region finds the weight, in the narrower float format, in its third operand. -/
theorem entry_weight (c : Dev nD) :
    @Eq (FVec Ideal S512x512 .bf16) (V m c main_v10)
      (truncf .bf16 (show FVec Ideal S512x512 .f32 from m ((c : Thread nD τ).loc main_arg1)) bitsLt_bf16_f32) := by
  show StableHlo.after hostOps0 (fun b => m (c, b)) (Proc.devRef .tc main_v10) = _
  after_results <;> rfl

end Cert.KernelIdeal.EntryArrays

end
-- ==== Proof.HostTail.lean ====
/-
  The operations after the dense product, as one function.

  Both programs finish the same way: the 400000 edge sources are normalised (a negative index i is read as i + 50000) and
  gather rows of the dense product x; each gathered row is scaled by its edge's value; and the scaled rows are added
  into a zero array at the rows the edge destinations name. Nothing here looks inside that chain: it is carried as ONE
  function `edgeSum` of x and the three edge arrays, and what is proved is that the kernel's program ends with
  `edgeSum` of the region's output array.
-/
import proofs.«149553_j28140625723622_1_alg».proof.Proof.Gen.KernelIdeal.Frame
import Idealize.ShloMosaic.Lib.StableHlo.Run
import Idealize.ShloMosaic.PureOps.Ideal

noncomputable section

namespace Cert.KernelIdeal.HostTail

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- Gather the rows of `x` at the normalised edge sources `x3`, scale row e by the edge value `x2 e`, and add the rows
    into zeros at the edge destinations `x4`. -/
def edgeSum (x : (⟨S50000x512, .f32⟩ : BufTy).Contents (Elt Ideal)) (x2 : (⟨S400000, .f32⟩ : BufTy).Contents (Elt Ideal))
    (x3 x4 : (⟨S400000, .i32⟩ : BufTy).Contents (Elt Ideal)) : (⟨S50000x512, .f32⟩ : BufTy).Contents (Elt Ideal) :=
  Host.scatterAdd (F := Ideal) scatter_S50000x512_S400000x1_S400000x512_1_0_0_1
    (broadcastInDim S50000x512 ![] bcast_S_S50000x512 (constant (F := Ideal) S_ .f32 0x00000000#32))
    (broadcastInDim S400000x1 ![0] bcast_S400000_S400000x1_0 x4)
    (mulf (broadcastInDim S400000x512 ![0, 1] bcast_S400000x1_S400000x512_0_1 (broadcastInDim S400000x1 ![0] bcast_S400000_S400000x1_0 x2))
      (Host.gather gather_S50000x512_S400000x1_S400000x512_1_0_n_n_0_1_1512 x
        (broadcastInDim S400000x1 ![0] bcast_S400000_S400000x1_0
          (select (cmpi .slt x3 (broadcastInDim S400000 ![] bcast_S_S400000 (constantI S_ 32 0#32)))
            (addi x3 (broadcastInDim S400000 ![] bcast_S_S400000 (constantI S_ 32 50000#32))) x3))))

set_option maxHeartbeats 2000000 in
/-- After the lines that follow the region, the program's result holds `edgeSum` of the region's output array and the
    three edge arrays as launched. -/
theorem result_eq (c : Dev nD) :
    Pipeline.afterTail₀ cfgs (dats m) 0 (V0 m) [hostOps1] c main_v24
      = edgeSum ((dats m 0 c).arrAt 3 cfg0.N) (m ((c : Thread nD τ).loc main_arg2)) (m ((c : Thread nD τ).loc main_arg3))
          (m ((c : Thread nD τ).loc main_arg4)) := by
  unfold Pipeline.afterTail₀
  show StableHlo.after hostOps1 _ (Proc.devRef .tc main_v24) = _
  after_results
  have h11 : Pipeline.withArrays (cfgs 0).spec c (V0 m c) (fun w => (dats m 0 c).arrAt w (cfgs 0).N) (Proc.devRef .tc main_v11)
      = (dats m 0 c).arrAt 3 cfg0.N :=
    Pipeline.withArrays_arr spec0 launch0.win.arr_inj c _ _ 3
  have h2 : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans (V_main_arg2 m c)
  have h3 : Pipeline.withArrays (cfgs 0).spec c (V0 m c) (fun w => (dats m 0 c).arrAt w (cfgs 0).N) (Proc.devRef .tc main_arg3)
      = m ((c : Thread nD τ).loc main_arg3) :=
    (Pipeline.withArrays_of_ne _ c (V0 m c) _ main_arg3 (by exact (by decide : ∀ w, Pipeline.arrRef spec0 w ≠ main_arg3))).trans (V_main_arg3 m c)
  have h4 : Pipeline.withArrays (cfgs 0).spec c (V0 m c) (fun w => (dats m 0 c).arrAt w (cfgs 0).N) (Proc.devRef .tc main_arg4)
      = m ((c : Thread nD τ).loc main_arg4) :=
    (Pipeline.withArrays_of_ne _ c (V0 m c) _ main_arg4 (by exact (by decide : ∀ w, Pipeline.arrRef spec0 w ≠ main_arg4))).trans (V_main_arg4 m c)
  rw [h11, h2, h3, h4]
  rfl

end Cert.KernelIdeal.HostTail

end
-- ==== Proof.LibScatterRead.lean ====
/-
  A host scatter that overwrites with one constant, read at an index.

  The host scatter is a left fold over the update positions in row-major order: each position whose result index
  lies inside the operand replaces the operand's element there, and a position whose result index falls outside is
  dropped. When the combining function keeps the update and every update element is the same constant c, the order
  of the fold and repeated hits do not matter: the result at an index i is c if SOME update position lands on i, and
  the operand's element at i otherwise.

  Two index layouts are read here, both with one start index per update row, stored as a column [M, 1] of signed
  integers, and both scattering along the operand's leading axis: a vector [N] receiving scalars, and a matrix [N, B]
  receiving whole rows of B elements. In both, update row k lands on operand row r exactly when the signed start
  index of k equals r; so the set of rows that are hit is the same for the two layouts.
-/
import Idealize.ShloMosaic.PureOps
import Idealize.ShloMosaic.Lib.ValueIdx

noncomputable section

namespace Cert.ScatterRead

open Idealize.ShloMosaic Idealize.ShloMosaic.ValueIdx
open scoped Classical

variable {α : Type}

/-! ## The fold -/

/-- A left fold of steps, each of which either overwrites ONE index (the one `g n` names) with the constant `c` or
    does nothing, read at `i`: `c` if some step of the list names `i`, the initial function's value otherwise. -/
theorem foldl_overwrite {ι β : Type} (g : ι → Option β) (c : α) (step : (β → α) → ι → (β → α))
    (hstep : ∀ r n i, step r n i = if g n = some i then c else r i) (L : List ι) (x : β → α) (i : β) :
    (L.foldl step x) i = if ∃ n ∈ L, g n = some i then c else x i := by
  induction L generalizing x with
  | nil => simp
  | cons n L ih =>
    rw [List.foldl_cons, ih, hstep]
    by_cases h1 : ∃ n' ∈ L, g n' = some i
    · rw [if_pos h1, if_pos]
      obtain ⟨n', hn', e⟩ := h1
      exact ⟨n', List.mem_cons_of_mem _ hn', e⟩
    · rw [if_neg h1]
      by_cases h2 : g n = some i
      · rw [if_pos h2, if_pos]
        exact ⟨n, List.mem_cons_self, h2⟩
      · rw [if_neg h2, if_neg]
        rintro ⟨n', hn', e⟩
        rcases List.mem_cons.mp hn' with rfl | hn'
        · exact h2 e
        · exact h1 ⟨n', hn', e⟩

/-- THE SCATTER OF ONE CONSTANT READ AT AN INDEX: with the update kept and every update element `c`, the result at
    `i` is `c` where some update position's result index is `i`, and the operand's element elsewhere. -/
theorem scatter_const_apply {s si u : Shape} {w : ℕ} (d : ScatterDims s si u) (x : s.Idx → α) (idx : IVec si w)
    (upd : u.Idx → α) (c : α) (hupd : ∀ j, upd j = c) (i : s.Idx) :
    Host.scatter d (fun _ b => b) x idx upd i = if ∃ j : u.Idx, d.resultIdx? j idx = some i then c else x i := by
  unfold Host.scatter
  refine (foldl_overwrite (fun n => d.resultIdx? (u.rowMajor.symm n) idx) c _ ?_ _ x i).trans ?_
  · intro r n i'
    dsimp only
    cases h : d.resultIdx? (u.rowMajor.symm n) idx with
    | none => simp
    | some i0 =>
      dsimp only
      by_cases hi : i' = i0
      · subst hi; rw [if_pos rfl, if_pos rfl, hupd]
      · rw [if_neg hi, if_neg]
        intro e
        exact hi (Option.some.inj e).symm
  · by_cases h : ∃ j : u.Idx, d.resultIdx? j idx = some i
    · rw [if_pos h, if_pos]
      obtain ⟨j, hj⟩ := h
      exact ⟨u.rowMajor j, List.mem_finRange _, by rw [Equiv.symm_apply_apply]; exact hj⟩
    · rw [if_neg h, if_neg]
      rintro ⟨n, _, e⟩
      exact h ⟨_, e⟩

/-! ## When an update position lands on an index -/

/-- An update position's result index is `i` exactly when, on every axis of the operand, the window's start plus the
    coordinate inside the window is `i`'s coordinate (which, being a coordinate, is inside the operand). -/
theorem resultIdx?_eq_some_iff {s si u : Shape} {w : ℕ} (d : ScatterDims s si u) (j : u.Idx) (idx : IVec si w) (i : s.Idx) :
    d.resultIdx? j idx = some i ↔ ∀ a, d.start j idx a + (d.window j a : ℤ) = ((i a).val : ℤ) := by
  unfold ScatterDims.resultIdx?
  split
  · rename_i h
    constructor
    · intro e a
      have e1 := congrArg Fin.val (congrFun (Option.some.inj e) a)
      have := h a
      simp only at e1
      omega
    · intro e
      refine congrArg some (funext fun a => Fin.ext ?_)
      have := e a
      have := h a
      simp only
      omega
  · rename_i h
    constructor
    · intro e; cases e
    · intro e
      exfalso
      apply h
      intro a
      have := e a
      have := (i a).isLt
      omega

/-! ## A column of start indices scattering scalars into a vector -/

/-- The dimension numbers of `x.at[idx].set(v)` on a vector `[N]` with `M` scalar updates, the start indices a
    column `[M, 1]`: no window axis in the updates, the operand's one axis inserted and scattered. -/
abbrev vecDims (N M : ℕ) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

theorem vecDims_start {N M w : ℕ} (wf) (j : (⟨1, ![M]⟩ : Shape).Idx) (idx : IVec ⟨2, ![M, 1]⟩ w) :
    (vecDims N M wf).start j idx 0 = (idx (ix2 (j 0) (0 : Fin 1))).toInt := by
  unfold ScatterDims.start
  rw [dif_pos (show (0 : Fin 1) ∈ (vecDims N M wf).scatterDimsToOperandDims from List.mem_singleton.mpr rfl)]
  have hsi : (vecDims N M wf).siIdx j ⟨List.idxOf (0 : Fin 1) (vecDims N M wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem vecDims_window {N M : ℕ} (wf) (j : (⟨1, ![M]⟩ : Shape).Idx) : (vecDims N M wf).window j 0 = 0 := by
  unfold ScatterDims.window
  rw [dif_neg (show ¬ (0 : Fin 1) ∈ (vecDims N M wf).sKept by
    show ¬ (0 : Fin 1) ∈ ([] : List (Fin 1)); simp)]

/-- Update `j` lands on element `i` of the vector exactly when its signed start index is `i`. -/
theorem vecDims_lands {N M w : ℕ} (wf) (j : (⟨1, ![M]⟩ : Shape).Idx) (idx : IVec ⟨2, ![M, 1]⟩ w) (i : (⟨1, ![N]⟩ : Shape).Idx) :
    (vecDims N M wf).resultIdx? j idx = some i ↔ (idx (ix2 (j 0) (0 : Fin 1))).toInt = ((i 0).val : ℤ) := by
  rw [resultIdx?_eq_some_iff]
  constructor
  · intro h
    have := h 0
    rw [vecDims_start, vecDims_window] at this
    simpa using this
  · intro h a
    obtain rfl : a = 0 := Subsingleton.elim _ _
    rw [vecDims_start, vecDims_window]
    simpa using h

/-! ## The same column scattering whole rows into a matrix -/

/-- The dimension numbers of `x.at[idx].set(v)` on a matrix `[N, B]` with `M` row updates `[M, B]`, the start
    indices a column `[M, 1]`: the updates' lane axis is the window, the operand's row axis inserted and scattered. -/
abbrev rowDims (N M B : ℕ) (wf : ScatterDims.WF ⟨2, ![N, B]⟩ ⟨2, ![M, 1]⟩ ⟨2, ![M, B]⟩ [1] [0] [0] 1) :
    ScatterDims ⟨2, ![N, B]⟩ ⟨2, ![M, 1]⟩ ⟨2, ![M, B]⟩ where
  updateWindowDims := [1]
  insertedWindowDims := [0]
  scatterDimsToOperandDims := [0]
  indexVectorDim := 1
  wf := wf

theorem rowDims_start0 {N M B w : ℕ} (wf) (j : (⟨2, ![M, B]⟩ : Shape).Idx) (idx : IVec ⟨2, ![M, 1]⟩ w) :
    (rowDims N M B wf).start j idx 0 = (idx (ix2 (j 0) (0 : Fin 1))).toInt := by
  unfold ScatterDims.start
  rw [dif_pos (show (0 : Fin 2) ∈ (rowDims N M B wf).scatterDimsToOperandDims from List.mem_singleton.mpr rfl)]
  have hsi : (rowDims N M B wf).siIdx j ⟨List.idxOf (0 : Fin 2) (rowDims N M B wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem rowDims_start1 {N M B w : ℕ} (wf) (j : (⟨2, ![M, B]⟩ : Shape).Idx) (idx : IVec ⟨2, ![M, 1]⟩ w) :
    (rowDims N M B wf).start j idx 1 = 0 := by
  unfold ScatterDims.start
  rw [dif_neg (show ¬ (1 : Fin 2) ∈ (rowDims N M B wf).scatterDimsToOperandDims by
    show ¬ (1 : Fin 2) ∈ ([0] : List (Fin 2)); decide)]

theorem rowDims_window0 {N M B : ℕ} (wf) (j : (⟨2, ![M, B]⟩ : Shape).Idx) : (rowDims N M B wf).window j 0 = 0 := by
  unfold ScatterDims.window
  rw [dif_neg (show ¬ (0 : Fin 2) ∈ (rowDims N M B wf).sKept by
    show ¬ (0 : Fin 2) ∈ ([1] : List (Fin 2)); decide)]

theorem rowDims_window1 {N M B : ℕ} (wf) (j : (⟨2, ![M, B]⟩ : Shape).Idx) : (rowDims N M B wf).window j 1 = (j 1).val := by
  unfold ScatterDims.window
  rw [dif_pos (show (1 : Fin 2) ∈ (rowDims N M B wf).sKept by
    show (1 : Fin 2) ∈ ([1] : List (Fin 2)); decide)]
  rfl

/-- Update element `(k, q)` lands on element `(r, q')` of the matrix exactly when the signed start index of row `k`
    is `r` and the lanes agree. -/
theorem rowDims_lands {N M B w : ℕ} (wf) (j : (⟨2, ![M, B]⟩ : Shape).Idx) (idx : IVec ⟨2, ![M, 1]⟩ w) (i : (⟨2, ![N, B]⟩ : Shape).Idx) :
    (rowDims N M B wf).resultIdx? j idx = some i
      ↔ (idx (ix2 (j 0) (0 : Fin 1))).toInt = ((i 0).val : ℤ) ∧ (j 1).val = (i 1).val := by
  rw [resultIdx?_eq_some_iff]
  constructor
  · intro h
    have h0 := h 0
    have h1 := h 1
    rw [rowDims_start0, rowDims_window0] at h0
    rw [rowDims_start1, rowDims_window1] at h1
    exact ⟨by simpa using h0, by simpa using h1⟩
  · rintro ⟨h0, h1⟩ a
    match a with
    | ⟨0, _⟩ =>
      show (rowDims N M B wf).start j idx 0 + ((rowDims N M B wf).window j 0 : ℤ) = ((i 0).val : ℤ)
      rw [rowDims_start0, rowDims_window0]; simpa using h0
    | ⟨1, _⟩ =>
      show (rowDims N M B wf).start j idx 1 + ((rowDims N M B wf).window j 1 : ℤ) = ((i 1).val : ℤ)
      rw [rowDims_start1, rowDims_window1]; simpa using h1

/-! ## The rows that are hit, and the two scatters read by them -/

/-- Row `r` is hit by the column of start indices: some update row's signed start index is `r`. -/
def Hit {M w : ℕ} (idx : IVec ⟨2, ![M, 1]⟩ w) (r : ℕ) : Prop :=
  ∃ k : Fin M, (idx (ix2 k (0 : Fin 1))).toInt = (r : ℤ)

/-- The vector scatter of one constant, at `r`: the constant if row `r` is hit, the operand's element otherwise. -/
theorem scatter_vec_apply {N M w : ℕ} (wf) (x : (⟨1, ![N]⟩ : Shape).Idx → α) (idx : IVec ⟨2, ![M, 1]⟩ w)
    (upd : (⟨1, ![M]⟩ : Shape).Idx → α) (c : α) (hupd : ∀ j, upd j = c) (r : Fin N) :
    Host.scatter (vecDims N M wf) (fun _ b => b) x idx upd (ix1 r) = if Hit idx r.val then c else x (ix1 r) := by
  rw [scatter_const_apply _ _ _ _ c hupd]
  by_cases h : Hit idx r.val
  · rw [if_pos h, if_pos]
    obtain ⟨k, hk⟩ := h
    exact ⟨ix1 k, (vecDims_lands wf _ idx _).mpr hk⟩
  · rw [if_neg h, if_neg]
    rintro ⟨j, hj⟩
    exact h ⟨j 0, (vecDims_lands wf j idx _).mp hj⟩

/-- The row scatter of one constant, at `(r, q)`: the constant if row `r` is hit, the operand's element otherwise. -/
theorem scatter_row_apply {N M B w : ℕ} (wf) (x : (⟨2, ![N, B]⟩ : Shape).Idx → α) (idx : IVec ⟨2, ![M, 1]⟩ w)
    (upd : (⟨2, ![M, B]⟩ : Shape).Idx → α) (c : α) (hupd : ∀ j, upd j = c) (r : Fin N) (q : Fin B) :
    Host.scatter (rowDims N M B wf) (fun _ b => b) x idx upd (ix2 r q) = if Hit idx r.val then c else x (ix2 r q) := by
  rw [scatter_const_apply _ _ _ _ c hupd]
  by_cases h : Hit idx r.val
  · rw [if_pos h, if_pos]
    obtain ⟨k, hk⟩ := h
    exact ⟨ix2 k q, (rowDims_lands wf _ idx _).mpr ⟨hk, rfl⟩⟩
  · rw [if_neg h, if_neg]
    rintro ⟨j, hj⟩
    exact h ⟨j 0, ((rowDims_lands wf j idx _).mp hj).1⟩

end Cert.ScatterRead

end
-- ==== Proof.MaskedRows.lean ====
/-
  Masking rows by a factor, and masking rows by overwriting, give the same dense product.

  The kernel zeroes the rows named by the index list by multiplying row r of the features with a mask entry that is 0
  if row r is named and 1 otherwise; the reference overwrites the named rows of the features with 0. Both read the
  names off the same column of start indices, and a row is named for the mask vector exactly when it is named for the
  feature matrix (the start index of some update equals r — see the landing conditions of the two scatters). On the
  extended reals a · 0 = 0 and a · 1 = a for EVERY a, infinite ones included, so the masked entries agree one by one,
  and the two dense products agree term by term: no finiteness of the inputs is needed.

  The remaining operations are the same chain on both sides, carried as one function.
-/
import proofs.«149553_j28140625723622_1_alg».proof.Proof.Gen.ReferenceIdeal.Read
import proofs.«149553_j28140625723622_1_alg».proof.Proof.ProductArray
import proofs.«149553_j28140625723622_1_alg».proof.Proof.EntryArrays
import proofs.«149553_j28140625723622_1_alg».proof.Proof.HostTail
import proofs.«149553_j28140625723622_1_alg».proof.Proof.LibScatterRead
import proofs.«149553_j28140625723622_1_alg».proof.Proof.LibLayoutRead
import Idealize.ShloMosaic.Lib.IdealHost

noncomputable section

namespace Cert.MaskedRows

open Idealize.ShloMosaic Idealize.ShloMosaic.ValueIdx
open Cert.ScatterRead
open scoped Classical

/-- Scaling by the 0/1 mask factor is overwriting by 0. -/
theorem mask_mul (a w : EReal) (P : Prop) [Decidable P] :
    (a * (if P then (0 : EReal) else 1)) * w = (if P then (0 : EReal) else a) * w := by
  split <;> simp

/-- The two programs normalise the row indices by the same operations: one column of start indices. -/
theorem startColumn_eq (x5 : IVec ⟨1, ![15000]⟩ 32) :
    Cert.ReferenceIdeal.Read.val_main_v5 (F := Ideal) x5 = Cert.KernelIdeal.EntryArrays.startColumn x5 := rfl

/-- The mask vector at r: 0 if row r is named by the start indices, 1 otherwise. -/
theorem maskVector_apply (x5 : IVec ⟨1, ![15000]⟩ 32) (r : Fin 50000) :
    Cert.KernelIdeal.EntryArrays.maskVector x5 (ix1 r)
      = if Hit (Cert.KernelIdeal.EntryArrays.startColumn x5) r.val then (0 : EReal) else 1 := by
  unfold Cert.KernelIdeal.EntryArrays.maskVector
  refine (scatter_vec_apply (N := 50000) (M := 15000) Cert.KernelIdeal.Gen.scatter_S50000_S15000x1_S15000_n_0_0_1_wf _
    (Cert.KernelIdeal.EntryArrays.startColumn x5) _ (Ideal.ofBits .f32 0x00000000#32) (fun j => ?_) r).trans ?_
  · exact Cert.LayoutRead.bcast_scalar _ _ _ j
  · rw [Cert.LayoutRead.bcast_scalar, constant_apply, Ideal.ofBits_zero_f32, Ideal.ofBits_one_f32]

/-- The reference's masked features at (r, j): 0 if row r is named by the start indices, the feature otherwise. -/
theorem maskedFeatures_apply (x0 : FVec Ideal ⟨2, ![50000, 512]⟩ .f32) (x5 : IVec ⟨1, ![15000]⟩ 32) (r : Fin 50000) (j : Fin 512) :
    Cert.ReferenceIdeal.Read.val_main_v7 (F := Ideal) x0 x5 (ix2 r j)
      = if Hit (Cert.KernelIdeal.EntryArrays.startColumn x5) r.val then (0 : EReal) else x0 (ix2 r j) := by
  unfold Cert.ReferenceIdeal.Read.val_main_v7
  rw [startColumn_eq]
  refine (scatter_row_apply (N := 50000) (M := 15000) (B := 512) Cert.ReferenceIdeal.Gen.scatter_S50000x512_S15000x1_S15000x512_1_0_0_1_wf x0
    (Cert.KernelIdeal.EntryArrays.startColumn x5) _ (Ideal.ofBits .f32 0x00000000#32) (fun i => ?_) r j).trans ?_
  · exact Cert.LayoutRead.bcast_scalar _ _ _ i
  · rw [Ideal.ofBits_zero_f32]

/-- THE DENSE PRODUCTS AGREE: the kernel's masked product of the features, the mask column and the re-formatted
    weight is the reference's product of the masked features and the weight. -/
theorem product_eq (x0 : FVec Ideal ⟨2, ![50000, 512]⟩ .f32) (x1 : FVec Ideal ⟨2, ![512, 512]⟩ .f32) (x5 : IVec ⟨1, ![15000]⟩ 32) :
    Cert.KernelIdeal.ProductArray.maskedProduct x0
        (shapeCast Cert.KernelIdeal.S50000x1 (Cert.KernelIdeal.EntryArrays.maskVector x5) Cert.KernelIdeal.Gen.shapeCasts_S50000_S50000x1)
        (truncf .bf16 x1 Cert.KernelIdeal.Gen.bitsLt_bf16_f32)
      = Cert.ReferenceIdeal.Read.val_main_v8 (F := Ideal) x0 x1 x5 := by
  funext i
  obtain ⟨r, k, rfl⟩ : ∃ (r : Fin 50000) (k : Fin 512), i = ix2 r k := ⟨i 0, i 1, eq_ix2 i⟩
  rw [Cert.KernelIdeal.ProductArray.maskedProduct_apply, Cert.ReferenceIdeal.Read.val_main_v8_apply]
  refine Finset.sum_congr rfl fun j _ => ?_
  have hl : Cert.ReferenceIdeal.Read.lidx_main_v8 (ix2 r k) j = ix2 r j := funext fun a => Fin.ext (by
    match a with
    | ⟨0, _⟩ => rfl
    | ⟨1, _⟩ => rfl)
  have hr : Cert.ReferenceIdeal.Read.ridx_main_v8 (ix2 r k) j = ix2 j k := funext fun a => Fin.ext (by
    match a with
    | ⟨0, _⟩ => rfl
    | ⟨1, _⟩ => rfl)
  rw [hl, hr, maskedFeatures_apply, truncf_apply, Cert.LayoutRead.cast_col, maskVector_apply]
  exact mask_mul _ _ _

/-- The reference's result is the shared chain applied to its dense product. -/
theorem reference_result (x0 : FVec Ideal ⟨2, ![50000, 512]⟩ .f32) (x1 : FVec Ideal ⟨2, ![512, 512]⟩ .f32)
    (x2 : FVec Ideal ⟨1, ![400000]⟩ .f32) (x3 x4 : IVec ⟨1, ![400000]⟩ 32) (x5 : IVec ⟨1, ![15000]⟩ 32) :
    Cert.ReferenceIdeal.Read.val_main_v21 (F := Ideal) x0 x1 x2 x3 x4 x5
      = Cert.KernelIdeal.HostTail.edgeSum (Cert.ReferenceIdeal.Read.val_main_v8 (F := Ideal) x0 x1 x5) x2 x3 x4 := rfl

end Cert.MaskedRows

end
-- ==== Proof.KernelRun.lean ====
/-
  The kernel's program, run: what its result array holds.

  The region leaves the masked product in its output array; with the arrays the region finds written out (the features as
  launched, the mask column, the re-formatted weight) that product is the reference's dense product of the masked
  features, entry by entry. The lines after the region then apply the shared chain to it. So every weakly fair execution
  ends with the result at the shared chain of the reference's dense product, and with every argument unchanged.
-/
import proofs.«149553_j28140625723622_1_alg».proof.Proof.MaskedRows

noncomputable section

namespace Cert.KernelIdeal.KernelRun

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The region's output array is the reference's dense product of the arguments as launched. -/
theorem region_output (c : Dev nD) :
    (dats m 0 c).arrAt 3 cfg0.N
      = Cert.ReferenceIdeal.Read.val_main_v8 (F := Ideal) (m ((c : Thread nD τ).loc main_arg0)) (m ((c : Thread nD τ).loc main_arg1))
          (m ((c : Thread nD τ).loc main_arg5)) := by
  rw [ProductArray.product_array, V_main_arg0, EntryArrays.entry_mask, EntryArrays.entry_weight]
  exact Cert.MaskedRows.product_eq _ _ _

/-- Every weakly fair execution terminates with the result at the shared chain of the reference's dense product, the
    index list returned as launched, and the arguments unchanged. -/
theorem run : θ_run defs (onTc (τ := τ) (main (F := Ideal))) ⟨m, fun _ => 0, ρ⟩ fun r => ∀ c : Dev nD,
      r.2.mem ((c.tc : Thread nD τ).loc main_v24)
        = HostTail.edgeSum (Cert.ReferenceIdeal.Read.val_main_v8 (F := Ideal) (m ((c : Thread nD τ).loc main_arg0))
            (m ((c : Thread nD τ).loc main_arg1)) (m ((c : Thread nD τ).loc main_arg5)))
          (m ((c : Thread nD τ).loc main_arg2)) (m ((c : Thread nD τ).loc main_arg3)) (m ((c : Thread nD τ).loc main_arg4))
      ∧ r.2.mem ((c.tc : Thread nD τ).loc main_arg5) = m ((c.tc : Thread nD τ).loc main_arg5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
    have h5 : r.2.mem ((c.tc : Thread nD τ).loc main_arg5) = m ((c.tc : Thread nD τ).loc main_arg5) :=
      ((h c).2 main_arg5 (Pipeline.mem_restRefs_of main_arg5 (by decide) (by decide))).trans (W_main_arg5 m (dats m) c)
    ⟨((h c).2 main_v24 (Pipeline.mem_restRefs_of main_v24 (by decide) (by decide))).trans
        ((HostTail.result_eq m c).trans (by rw [region_output])),
      h5,
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      h5⟩)
    (run_main m ρ)

end Cert.KernelIdeal.KernelRun

end
-- ==== Proof.lean ====
/-
  A masked dense transform followed by a sparse aggregation: the kernel's program and the reference compute the same
  array on the extended reals.

  Both programs zero the feature rows an index list names, multiply by the weight, gather the product's rows at the
  edge sources, scale them by the edge values and add them at the edge destinations. They differ in ONE place: the
  kernel zeroes a row by multiplying it with a 0/1 mask entry (the mask built by overwriting an all-ones vector at the
  listed rows) inside a product computed block by block, 2000 rows at a time; the reference overwrites the listed rows
  with 0 and multiplies once. A row is listed for the mask exactly when it is listed for the features, and
  a · 0 = 0, a · 1 = a hold for every extended real, so the two dense products agree entry by entry (no finiteness is
  used); the blocks tile the rows; a change of float format is the identity here; and the remaining operations are the
  same chain on both sides, carried as one function.

  The three frames are the programs' own runs (every argument array ends unchanged), and the idealized kernel is the
  kernel's own text read on the extended reals: nothing was rewritten.
-/
import proofs.«149553_j28140625723622_1_alg».proof.Defs
import proofs.«149553_j28140625723622_1_alg».proof.Proof.Gen.Kernel
import proofs.«149553_j28140625723622_1_alg».proof.Proof.Gen.Kernel.Skeleton
import proofs.«149553_j28140625723622_1_alg».proof.Proof.Gen.Kernel.Launch
import proofs.«149553_j28140625723622_1_alg».proof.Proof.Gen.Kernel.Points
import proofs.«149553_j28140625723622_1_alg».proof.Proof.Gen.Kernel.Frame
import proofs.«149553_j28140625723622_1_alg».proof.Proof.Gen.KernelIdeal
import proofs.«149553_j28140625723622_1_alg».proof.Proof.Gen.KernelIdeal.Skeleton
import proofs.«149553_j28140625723622_1_alg».proof.Proof.Gen.KernelIdeal.Launch
import proofs.«149553_j28140625723622_1_alg».proof.Proof.Gen.KernelIdeal.Points
import proofs.«149553_j28140625723622_1_alg».proof.Proof.Gen.KernelIdeal.Frame
import proofs.«149553_j28140625723622_1_alg».proof.Proof.Gen.ReferenceIdeal
import proofs.«149553_j28140625723622_1_alg».proof.Proof.Gen.ReferenceIdeal.Run
import proofs.«149553_j28140625723622_1_alg».proof.Proof.Gen.ReferenceIdeal.Read
import proofs.«149553_j28140625723622_1_alg».proof.Proof.Gen.Pre_finite_inputs
import proofs.«149553_j28140625723622_1_alg».proof.Proof.KernelRun
import Idealize.ShloMosaic.Adequacy
import Idealize.ShloMosaic.Init

noncomputable section

namespace Cert.Proof

open Idealize.ShloMosaic Idealize.ShloMosaic.TcCoe Idealize.SL.Sem

/-- The kernel's program as printed runs and leaves its arguments unchanged. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and leaves its arguments unchanged: its run, with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Nothing was rewritten on the way to the extended reals. -/
theorem preserves : Cert.preserves_Kernel_KernelIdeal := trivial

/-- From memories agreeing on the arguments both programs end with the shared chain applied to the reference's dense
    product — the kernel's masked product is that product — and with the index list as launched. -/
theorem algebraic : Cert.algebraic_KernelIdeal_ReferenceIdeal := by
  intro m ρ m' ρ' _ hagree
  refine ⟨_, _, Cert.KernelIdeal.KernelRun.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v21_eq, (hagree c).1, (hagree c).2.1, (hagree c).2.2.1, (hagree c).2.2.2.1,
      (hagree c).2.2.2.2.1, (hagree c).2.2.2.2.2]
    exact Cert.MaskedRows.reference_result _ _ _ _ _ _
  · exact (hagree c).2.2.2.2.2

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
